-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S8192x16 : Shape := ⟨2, ![8192, 16]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S4096x512 .f32) (main_arg1 : FVec F S8192x512 .f32) (main_arg2 : FVec F S8192x16 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S4096x512 : Shape := ⟨2, ![4096, 512]⟩
abbrev S8192x512 : Shape := ⟨2, ![8192, 512]⟩
abbrev S8192x16 : Shape := ⟨2, ![8192, 16]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x16 : Shape := ⟨2, ![4096, 16]⟩
abbrev S1024x512 : Shape := ⟨2, ![1024, 512]⟩
abbrev S1024x1 : Shape := ⟨2, ![1024, 1]⟩
abbrev S1x1024 : Shape := ⟨2, ![1, 1024]⟩
abbrev S1024x16 : Shape := ⟨2, ![1024, 16]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x16, .f32⟩
  | .hbm, ⟨3, _⟩ => ⟨S4096x512, .bf16⟩
  | .hbm, ⟨4, _⟩ => ⟨S8192x512, .bf16⟩
  | .hbm, ⟨5, _⟩ => ⟨S8192x16, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S1x8192, .f32⟩
  | .hbm, ⟨20, _⟩ => ⟨S4096x16, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x16, .bf16⟩
  | .local _ .vmem, ⟨9, _⟩ => ⟨S1024x16, .bf16⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S8192x512_S8192_d1 : S8192x512.ReducesTo [1] S8192
  bcast_S_S8192 : S_.BroadcastsInDim S8192 (![] : Fin 0 → Fin S8192.rank)
  bcast_S8192_S1x8192_1 : S8192.BroadcastsInDim S1x8192 (![1] : Fin 1 → Fin S1x8192.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x16 : S1024x1.Broadcasts S1024x16
  dot_S1024x512_S512x1024_S1024x1024_1_0_0_1_n_n_wf : DotDims.WF S1024x512 S512x1024 S1024x1024 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S8192x16.size a
  hwx0_4 : ∀ i : grid0.Coords, EltTy.bits .bf16 = 32 ∨ (Rect.block (s := S8192x16) S1024x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S4096x16.size a
  hwx0_5 : ∀ i : grid0.Coords, EltTy.bits .f32 = 32 ∨ (Rect.block (s := S4096x16) S1024x16.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S8192x16 : Shape := ⟨2, ![8192, 16]⟩
abbrev S_ : Shape := ⟨0, ![]⟩
abbrev S4096 : Shape := ⟨1, ![4096]⟩
abbrev S4096x1 : Shape := ⟨2, ![4096, 1]⟩
abbrev S8192 : Shape := ⟨1, ![8192]⟩
abbrev S4096x8192 : Shape := ⟨2, ![4096, 8192]⟩
abbrev S1x8192 : Shape := ⟨2, ![1, 8192]⟩
abbrev S4096x16 : Shape := ⟨2, ![4096, 16]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x16, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S4096x8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x16, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x16, .f32⟩
  | .hbm, ⟨29, _⟩ => ⟨S4096x16, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  bcast_S4096x1_S4096x16_0_1 : S4096x1.BroadcastsInDim S4096x16 (![0, 1] : Fin 2 → Fin S4096x16.rank)
  dot_S4096x512_S8192x512_S4096x8192_1_1_0_0_n_n_wf : DotDims.WF S4096x512 S8192x512 S4096x8192 [1] [1] [0] [0] [] []
  dot_S4096x8192_S8192x16_S4096x16_1_0_0_1_n_n_wf : DotDims.WF S4096x8192 S8192x16 S4096x16 [1] [0] [0] [1] [] []

variable [Facts₀]

def dot_S4096x512_S8192x512_S4096x8192_1_1_0_0_n_n : DotDims S4096x512 S8192x512 S4096x8192 where
  lhsContracting := [1]
  rhsContracting := [1]
  lhsNonContracting := [0]
  rhsNonContracting := [0]
  lhsBatch := []
  rhsBatch := []
  wf := dot_S4096x512_S8192x512_S4096x8192_1_1_0_0_n_n_wf
def dot_S4096x8192_S8192x16_S4096x16_1_0_0_1_n_n : DotDims S4096x8192 S8192x16 S4096x16 where
  lhsContracting := [1]
  rhsContracting := [0]
  lhsNonContracting := [0]
  rhsNonContracting := [1]
  lhsBatch := []
  rhsBatch := []
  wf := dot_S4096x8192_S8192x16_S4096x16_1_0_0_1_n_n_wf

class Facts : Prop extends Facts₀ where

variable [Facts]
-- ==== Proof.Consts.lean ====
/-
  The four float words the two programs spell, as the extended reals they denote: 0, 1, 2 and −1/2.  All are
  exact binary fractions, so each denotes the number its decimal spelling names.
-/
import Idealize.ShloMosaic.PureOps.Ideal
import Idealize.ShloMosaic.PureOps.Ideal.Laws

noncomputable section

namespace Cert.Grnn.Consts

open Idealize.ShloMosaic

/-- The word of `+0.0` denotes `0`. -/
theorem ofBits_zero : Ideal.ofBits .f32 0x00000000#32 = 0 := Ideal.ofBits_zero_f32

/-- The word of `1.0` denotes `1`. -/
theorem ofBits_one : Ideal.ofBits .f32 0x3F800000#32 = ((1 : ℝ) : EReal) := by
  simp [Ideal.ofBits, Ideal.ieee, -EReal.coe_mul]; norm_num

/-- The word of `2.0` denotes `2`. -/
theorem ofBits_two : Ideal.ofBits .f32 0x40000000#32 = ((2 : ℝ) : EReal) := by
  simp [Ideal.ofBits, Ideal.ieee, -EReal.coe_mul]; norm_num

/-- The word of `-0.5` denotes `−1/2`. -/
theorem ofBits_negHalf : Ideal.ofBits .f32 0xBF000000#32 = ((-(1 / 2) : ℝ) : EReal) := by
  simp [Ideal.ofBits, Ideal.ieee, -EReal.coe_mul]; norm_num

end Cert.Grnn.Consts

end
-- ==== Proof.Spec.lean ====
/-
  What both programs compute, as functions of the three argument arrays X [4096, 512], Y [8192, 512], L [8192, 16]
  over the extended reals:

      out (n, k) = (∑ₘ w (n, m) · L (m, k)) / (0 + ∑ₘ w (n, m)),      w (n, m) = exp (−‖Xₙ − Yₘ‖² / 2),

  the exponent spelt by the reference as −(((0 + ‖Xₙ‖²) + (0 + ‖Yₘ‖²)) − 2·⟨Xₙ, Yₘ⟩) / 2 and by the kernel as
  ⟨Xₙ, Yₘ⟩·1 + (−½)·(0 + ‖Xₙ‖²) + (−½)·(0 + ‖Yₘ‖²).

  The kernel reaches the two sums over m in eight steps of 1024 columns for each tile of 1024 rows: after step j of
  row tile i it holds  0 + ∑_{j' ≤ j} (block j' of the sum).  The last section shows that the eight blocks of 1024
  columns, in order, are the 8192 columns, so that after step 7 the two running sums are the reference's two sums.
  Sums over a block are indexed by natural numbers, row 1024·i + p and column 1024·j + q read modulo the array's
  extent so that they are defined for every i and j; inside the grid (i < 4, j < 8) the reduction is vacuous.
-/
import Idealize.ShloMosaic.PureOps.Ideal
import Idealize.ShloMosaic.Lib.ValueIdx
import proofs.«181819_j7292854469118_2_alg».proof.Proof.Consts

noncomputable section

open scoped BigOperators

namespace Cert.Grnn

open Idealize.ShloMosaic Idealize.ShloMosaic.ValueIdx

abbrev SX : Shape := ⟨2, ![4096, 512]⟩
abbrev SY : Shape := ⟨2, ![8192, 512]⟩
abbrev SL : Shape := ⟨2, ![8192, 16]⟩
abbrev SO : Shape := ⟨2, ![4096, 16]⟩

/-! ## The weight, in the two spellings -/

section weight
variable (X : SX.Idx → EReal) (Y : SY.Idx → EReal)

/-- ‖Xₙ‖². -/
def xsq (n : Fin 4096) : EReal := ∑ d : Fin 512, X (ix2 n d) * X (ix2 n d)
/-- ‖Yₘ‖². -/
def ysq (m : Fin 8192) : EReal := ∑ d : Fin 512, Y (ix2 m d) * Y (ix2 m d)
/-- ⟨Xₙ, Yₘ⟩. -/
def cross (n : Fin 4096) (m : Fin 8192) : EReal := ∑ d : Fin 512, X (ix2 n d) * Y (ix2 m d)

/-- The weight as the reference spells it: exp (−(((0 + ‖Xₙ‖²) + (0 + ‖Yₘ‖²)) − 2·⟨Xₙ, Yₘ⟩) / 2). -/
def wRef (n : Fin 4096) (m : Fin 8192) : EReal :=
  Ideal.exp (Ideal.div (-(((Ideal.ofBits .f32 0x00000000#32 + xsq X n) + (Ideal.ofBits .f32 0x00000000#32 + ysq Y m))
    - Ideal.ofBits .f32 0x40000000#32 * cross X Y n m)) (Ideal.ofBits .f32 0x40000000#32))

/-- The weight as the kernel spells it: exp (⟨Xₙ, Yₘ⟩·1 + (−½)·(0 + ‖Xₙ‖²) + (−½)·(0 + ‖Yₘ‖²)). -/
def wKer (n : Fin 4096) (m : Fin 8192) : EReal :=
  Ideal.exp ((cross X Y n m * Ideal.ofBits .f32 0x3F800000#32
      + Ideal.ofBits .f32 0xBF000000#32 * (Ideal.ofBits .f32 0x00000000#32 + xsq X n))
    + Ideal.ofBits .f32 0xBF000000#32 * (Ideal.ofBits .f32 0x00000000#32 + ysq Y m))

end weight

/-! ## The result, for any weight -/

section result
variable (W : Fin 4096 → Fin 8192 → EReal) (L : SL.Idx → EReal)

/-- Entry (n, k) of the result: the weighted sum of column k of L over the sum of the weights of row n. -/
def Gat (n : Fin 4096) (k : Fin 16) : EReal :=
  Ideal.div (∑ m : Fin 8192, W n m * L (ix2 m k)) (Ideal.ofBits .f32 0x00000000#32 + ∑ m : Fin 8192, W n m)

/-- The result array. -/
def G : SO.Idx → EReal := fun i => Gat W L (i 0) (i 1)

/-! ## The same, tile by tile -/

/-- Row p of row tile i. -/
def rowOf (i : ℕ) (p : Fin 1024) : Fin 4096 := ⟨(1024 * i + p.val) % 4096, Nat.mod_lt _ (by decide)⟩
/-- Column q of column block j. -/
def colOf (j : ℕ) (q : Fin 1024) : Fin 8192 := ⟨(1024 * j + q.val) % 8192, Nat.mod_lt _ (by decide)⟩

/-- Column block j's part of the weighted sum for row p of tile i and label column k. -/
def accBlock (i j : ℕ) (p : Fin 1024) (k : Fin 16) : EReal :=
  ∑ q : Fin 1024, W (rowOf i p) (colOf j q) * L (ix2 (colOf j q) k)
/-- Column block j's part of the sum of weights for row p of tile i. -/
def sumBlock (i j : ℕ) (p : Fin 1024) : EReal := ∑ q : Fin 1024, W (rowOf i p) (colOf j q)

/-- The weighted sum after column blocks 0 … j, from zero. -/
def accUpTo (i j : ℕ) (p : Fin 1024) (k : Fin 16) : EReal :=
  Ideal.ofBits .f32 0x00000000#32 + ∑ j' ∈ Finset.range (j + 1), accBlock W L i j' p k
/-- The sum of weights after column blocks 0 … j, from zero. -/
def sumUpTo (i j : ℕ) (p : Fin 1024) : EReal :=
  Ideal.ofBits .f32 0x00000000#32 + ∑ j' ∈ Finset.range (j + 1), sumBlock W i j' p

theorem accUpTo_zero (i : ℕ) (p : Fin 1024) (k : Fin 16) :
    accUpTo W L i 0 p k = Ideal.ofBits .f32 0x00000000#32 + accBlock W L i 0 p k := by
  unfold accUpTo; rw [Finset.sum_range_one]

theorem accUpTo_succ (i j : ℕ) (p : Fin 1024) (k : Fin 16) :
    accUpTo W L i (j + 1) p k = accUpTo W L i j p k + accBlock W L i (j + 1) p k := by
  unfold accUpTo; rw [Finset.sum_range_succ, add_assoc]

theorem sumUpTo_zero (i : ℕ) (p : Fin 1024) :
    sumUpTo W i 0 p = Ideal.ofBits .f32 0x00000000#32 + sumBlock W i 0 p := by
  unfold sumUpTo; rw [Finset.sum_range_one]

theorem sumUpTo_succ (i j : ℕ) (p : Fin 1024) :
    sumUpTo W i (j + 1) p = sumUpTo W i j p + sumBlock W i (j + 1) p := by
  unfold sumUpTo; rw [Finset.sum_range_succ, add_assoc]

end result

/-! ## Eight blocks of 1024 columns are the 8192 columns -/

/-- a blocks of b consecutive terms, in order, are the first a·b terms. -/
theorem sum_blocks {M : Type*} [AddCommMonoid M] (a b : ℕ) (g : ℕ → M) :
    ∑ j ∈ Finset.range a, ∑ q ∈ Finset.range b, g (b * j + q) = ∑ m ∈ Finset.range (a * b), g m := by
  induction a with
  | zero => simp
  | succ a ih =>
    rw [Finset.sum_range_succ, ih, Nat.succ_mul, Finset.sum_range_add]
    congr 1
    exact Finset.sum_congr rfl fun q _ => by rw [Nat.mul_comm b a]

/-- Summing a function of the column over the eight blocks in order sums it over all 8192 columns. -/
theorem sum_cols (g : Fin 8192 → EReal) :
    ∑ j ∈ Finset.range 8, ∑ q : Fin 1024, g (colOf j q) = ∑ m : Fin 8192, g m := by
  let g' : ℕ → EReal := fun m => g ⟨m % 8192, Nat.mod_lt _ (by decide)⟩
  have hl : ∀ j : ℕ, ∑ q : Fin 1024, g (colOf j q) = ∑ q ∈ Finset.range 1024, g' (1024 * j + q) :=
    fun j => (Finset.sum_range (fun q => g' (1024 * j + q))).symm
  have hr : ∑ m : Fin 8192, g m = ∑ m ∈ Finset.range (8 * 1024), g' m := by
    rw [show (8 * 1024 : ℕ) = 8192 from rfl, Finset.sum_range]
    exact Finset.sum_congr rfl fun m _ => congrArg g (Fin.ext (Nat.mod_eq_of_lt m.isLt).symm)
  rw [hr, ← sum_blocks 8 1024 g']
  exact Finset.sum_congr rfl fun j _ => hl j

/-- After the last column block the two running sums of a row are the two sums over all columns, and their
    quotient is the result's entry. -/
theorem quotient_upTo_last (W : Fin 4096 → Fin 8192 → EReal) (L : SL.Idx → EReal) (i : ℕ) (p : Fin 1024) (k : Fin 16) :
    Ideal.div (accUpTo W L i 7 p k) (sumUpTo W i 7 p) = Gat W L (rowOf i p) k := by
  unfold accUpTo sumUpTo Gat accBlock sumBlock
  rw [sum_cols (fun m => W (rowOf i p) m * L (ix2 m k)), sum_cols (fun m => W (rowOf i p) m),
    Consts.ofBits_zero, zero_add]

end Cert.Grnn

end
-- ==== Proof.HostSide.lean ====
/-
  The arrays the kernel's windows stage, as the operations before the launch leave them, read at an index over the
  extended reals:  the three arguments with their format narrowed (the identity), the column  (−½)·(0 + ‖Xₙ‖²)  and the
  row  (−½)·(0 + ‖Yₘ‖²)  — each a row sum of squares from zero, scaled by the broadcast word of −½, the column kept as
  [4096, 1], the row re-laid as [1, 8192].
-/
import proofs.«181819_j7292854469118_2_alg».proof.Proof.Gen.KernelIdeal.Frame.Runs
import proofs.«181819_j7292854469118_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
  Idealize.ShloMosaic.ValueIdx Idealize.ShloMosaic.StableHlo Cert.Grnn

/-- A host sum along the second axis of a matrix, from the word w, at row n:  w + ∑_d x (n, d). -/
theorem rowSum_at {R C : ℕ} (x : (⟨2, ![R, C]⟩ : Shape).Idx → EReal)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (w : BitVec 32) (n : Fin R) :
    Host.reduceAdd (F := Ideal) (φ := .f32) x (constant (F := Ideal) ⟨0, ![]⟩ .f32 w) h' hu (ix1 n)
      = Ideal.ofBits .f32 w + ∑ d : Fin C, x (ix2 n d) := by
  simp only [Host.reduceAdd, Ideal.hostReduceAdd_def]
  rw [Ideal.hostReduceAdd_single h' h]
  refine congrArg₂ (· + ·) rfl (Finset.sum_congr rfl fun d _ => congrArg x ?_)
  funext c; apply Fin.ext; fin_cases c <;> rfl

variable (m : (ℓ : Loc nD τ sig) → Buf (Elt Ideal) ℓ)

/-- Window 0's array is X. -/
theorem arrX_at (c : Dev nD) (n : Fin 4096) (d : Fin 512) :
    (V m c main_v0 : S4096x512.Idx → EReal) (ix2 n d)
      = (m ((c : Thread nD τ).loc main_arg0) : S4096x512.Idx → EReal) (ix2 n d) := by
  dsimp only [V, hostOps0]
  after_results
  rfl

/-- Window 1's array is Y. -/
theorem arrY_at (c : Dev nD) (n : Fin 8192) (d : Fin 512) :
    (V m c main_v1 : S8192x512.Idx → EReal) (ix2 n d)
      = (m ((c : Thread nD τ).loc main_arg1) : S8192x512.Idx → EReal) (ix2 n d) := by
  dsimp only [V, hostOps0]
  after_results
  rfl

/-- Window 4's array is L. -/
theorem arrL_at (c : Dev nD) (n : Fin 8192) (k : Fin 16) :
    (V m c main_v2 : S8192x16.Idx → EReal) (ix2 n k)
      = (m ((c : Thread nD τ).loc main_arg2) : S8192x16.Idx → EReal) (ix2 n k) := by
  dsimp only [V, hostOps0]
  after_results
  rfl

/-- Window 2's array, the column of the rows' terms:  (−½)·(0 + ‖Xₙ‖²)  at (n, 0). -/
theorem arrXh_at (c : Dev nD) (n : Fin 4096) :
    (V m c main_v7 : S4096x1.Idx → EReal) (ix2 n (0 : Fin 1))
      = Ideal.ofBits .f32 0xBF000000#32
          * (Ideal.ofBits .f32 0x00000000#32 + xsq (m ((c : Thread nD τ).loc main_arg0)) n) := by
  dsimp only [V, hostOps0]
  after_results
  rw [ValueIdx.mulf_apply]
  unfold xsq
  refine congrArg₂ (· * ·) ?_ ?_
  · exact broadcastInDim_apply _ _ _ (ix2 n (0 : Fin 1)) ix0 (fun a => a.elim0)
  · refine (broadcastInDim_apply _ _ _ (ix2 n (0 : Fin 1)) (ix1 n) (fun a => match a with
      | ⟨0, _⟩ => by show n.val = if (4096 : Nat) = 1 then 0 else n.val; rw [if_neg (by decide)])).trans ?_
    refine (rowSum_at _ _ (by decide) _ _ n).trans ?_
    rfl

/-- Window 3's array, the row of the columns' terms:  (−½)·(0 + ‖Yₘ‖²)  at (0, m). -/
theorem arrYh_at (c : Dev nD) (n : Fin 8192) :
    (V m c main_v12 : S1x8192.Idx → EReal) (ix2 (0 : Fin 1) n)
      = Ideal.ofBits .f32 0xBF000000#32
          * (Ideal.ofBits .f32 0x00000000#32 + ysq (m ((c : Thread nD τ).loc main_arg1)) n) := by
  dsimp only [V, hostOps0]
  after_results
  refine (broadcastInDim_apply _ _ _ (ix2 (0 : Fin 1) n) (ix1 n) (fun a => match a with
      | ⟨0, _⟩ => by show n.val = if (8192 : Nat) = 1 then 0 else n.val; rw [if_neg (by decide)])).trans ?_
  rw [ValueIdx.mulf_apply]
  unfold ysq
  refine congrArg₂ (· * ·) ?_ ?_
  · exact broadcastInDim_apply _ _ _ (ix1 n) ix0 (fun a => a.elim0)
  · refine (rowSum_at _ _ (by decide) _ _ n).trans ?_
    rfl

end Cert.KernelIdeal.HostSide

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.Body.lean ====
/-
  The kernel body's arithmetic, read at an index over the extended reals.  With x0 the block of 1024 rows of X, x1 the
  block of 1024 rows of Y, x2 the column of the rows' −½‖·‖² terms, x3 the row of the columns' −½‖·‖² terms, x4 the
  block of 1024 rows of L:

    weights (p, q)   = exp ((∑_d x0 (p, d) · x1 (q, d)) · 1 + x2 (p, 0) + x3 (0, q))       (a product with the transpose)
    new acc (p, k)   = acc (p, k) + ∑_q weights (p, q) · x4 (q, k)                          (the change of format is the identity)
    new wsum (p, 0)  = wsum (p, 0) + ∑_q weights (p, q)                                     (a row sum kept as a column)
    out (p, k)       = acc (p, k) / wsum (p, 0)                                            (the column broadcast over k)

  and the two resets are the zero word everywhere.
-/
import proofs.«181819_j7292854469118_2_alg».proof.Proof.Gen.KernelIdeal.Skeleton
import proofs.«181819_j7292854469118_2_alg».proof.Proof.LibKeepdims
import proofs.«181819_j7292854469118_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block of weights at (p, q). -/
theorem weights_at (x0 x1 : Vec Ideal S1024x512 .bf16) (x2 : Vec Ideal S1024x1 .f32) (x3 : Vec Ideal S1x1024 .f32)
    (p q : Fin 1024) :
    k0_pay5 (F := Ideal) x0 x1 x2 x3 (ix2 p q)
      = Ideal.exp (((∑ d : Fin 512, x0 (ix2 p d) * x1 (ix2 q d)) * Ideal.ofBits .f32 0x3F800000#32
          + x2 (ix2 p (0 : Fin 1))) + x3 (ix2 (0 : Fin 1) q)) := by
  unfold k0_pay5
  simp only [shapeCast_self]
  show Ideal.exp ((FloatOps.matmul (F := Ideal) dot_S1024x512_S512x1024_S1024x1024_1_0_0_1_n_n none x0
        (transpose S512x1024 [1, 0] x1 _) (constant (F := Ideal) S1024x1024 .f32 0x00000000#32) (ix2 p q)
          * Ideal.ofBits .f32 0x3F800000#32
        + broadcastTo S1024x1024 x2 _ (ix2 p q)) + broadcastTo S1024x1024 x3 _ (ix2 p q)) = _
  refine congrArg Ideal.exp (congrArg₂ (· + ·) (congrArg₂ (· + ·) (congrArg (· * Ideal.ofBits .f32 0x3F800000#32) ?_) ?_) ?_)
  · refine (PlainMatmul.matmul_zero_apply _ rfl rfl rfl rfl rfl rfl none x0 _ p q).trans ?_
    exact Finset.sum_congr rfl fun d _ => congrArg (x0 (ix2 p d) * ·) (transpose_ix2_apply x1 _ d q)
  · exact Cert.Lib.Keepdims.broadcastTo_a1_ab_apply x2 _ p q
  · exact broadcastTo_1b_ab_apply x3 _ p q

/-- The weighted-sum accumulator after the step, at (p, k). -/
theorem acc_at (x0 x1 : Vec Ideal S1024x512 .bf16) (x2 : Vec Ideal S1024x1 .f32) (x3 : Vec Ideal S1x1024 .f32)
    (x4 : Vec Ideal S1024x16 .bf16) (a : Vec Ideal S1024x16 .f32) (p : Fin 1024) (k : Fin 16) :
    k0_pay6 (F := Ideal) x0 x1 x2 x3 x4 a (ix2 p k)
      = a (ix2 p k) + ∑ q : Fin 1024, k0_pay5 (F := Ideal) x0 x1 x2 x3 (ix2 p q) * x4 (ix2 q k) := by
  unfold k0_pay6
  simp only [shapeCast_self]
  show a (ix2 p k) + FloatOps.matmul (F := Ideal) dot_S1024x1024_S1024x16_S1024x16_1_0_0_1_n_n none
      (truncf .bf16 (k0_pay5 (F := Ideal) x0 x1 x2 x3) _) x4 (constant (F := Ideal) S1024x16 .f32 0x00000000#32) (ix2 p k) = _
  refine congrArg (a (ix2 p k) + ·) ?_
  exact PlainMatmul.matmul_zero_apply _ rfl rfl rfl rfl rfl rfl none
    (truncf .bf16 (k0_pay5 (F := Ideal) x0 x1 x2 x3) _) x4 p k

/-- The sum-of-weights accumulator after the step, at row p. -/
theorem wsum_at (x0 x1 : Vec Ideal S1024x512 .bf16) (x2 : Vec Ideal S1024x1 .f32) (x3 : Vec Ideal S1x1024 .f32)
    (w : Vec Ideal S1024x1 .f32) (p : Fin 1024) :
    k0_pay7 (F := Ideal) x0 x1 x2 x3 w (ix2 p (0 : Fin 1))
      = w (ix2 p (0 : Fin 1)) + ∑ q : Fin 1024, k0_pay5 (F := Ideal) x0 x1 x2 x3 (ix2 p q) := by
  unfold k0_pay7
  show w (ix2 p (0 : Fin 1)) + shapeCast S1024x1
      (multiReduction (F := Ideal) .add [1] S1024 (k0_pay5 (F := Ideal) x0 x1 x2 x3) 0x00000000#32 _ _ _) _ (ix2 p (0 : Fin 1)) = _
  refine congrArg (w (ix2 p (0 : Fin 1)) + ·) ?_
  refine (Cert.Lib.Keepdims.shapeCast_a_a1_apply _ _ p (0 : Fin 1)).trans ?_
  refine (Ideal.multiReduction_add_single _ _ _ _ _ (ix1 p)).trans ?_
  refine Finset.sum_congr rfl fun q _ => congrArg (k0_pay5 (F := Ideal) x0 x1 x2 x3) ?_
  funext c; apply Fin.ext; fin_cases c <;> rfl

/-- The quotient written out at the last step, at (p, k). -/
theorem quot_at (a : Vec Ideal S1024x16 .f32) (w : Vec Ideal S1024x1 .f32) (p : Fin 1024) (k : Fin 16) :
    k0_pay2 (F := Ideal) a w (ix2 p k) = Ideal.div (a (ix2 p k)) (w (ix2 p (0 : Fin 1))) := by
  unfold k0_pay2
  show Ideal.div (a (ix2 p k)) (broadcastTo S1024x16 w _ (ix2 p k)) = _
  exact congrArg (Ideal.div (a (ix2 p k))) (Cert.Lib.Keepdims.broadcastTo_a1_ab_apply w _ p k)

/-- The re-laying of the sum-of-weights column onto itself changes nothing. -/
theorem relay_eq {F : FTy → Type} [FloatOps F] (v : FVec F S1024x1 .f32) : k0_pay1 (F := F) v = v := by
  unfold k0_pay1
  exact shapeCast_self _ _

/-- The reset of the weighted-sum accumulator is the zero word everywhere. -/
theorem zero_acc_at (i : S1024x16.Idx) : k0_pay3 (F := Ideal) i = Ideal.ofBits .f32 0x00000000#32 := by
  unfold k0_pay3
  simp only [shapeCast_self]
  rfl

/-- The reset of the sum-of-weights accumulator is the zero word everywhere. -/
theorem zero_wsum_at (i : S1024x1.Idx) : k0_pay4 (F := Ideal) i = Ideal.ofBits .f32 0x00000000#32 := by
  unfold k0_pay4
  simp only [shapeCast_self]
  rfl

end Cert.KernelIdeal.Body

end
-- ==== Proof.Blocks.lean ====
/-
  The blocks the body loads at grid point t, read off the argument arrays.  The grid is 4 row tiles by 8 column
  blocks and point t is row tile i = t / 8, column block j = t % 8: the windows over X and over the rows' terms
  follow i, the windows over Y, over the columns' terms and over L follow j.  A block's entry at a local index is its
  array's entry at  (block index) · (block size) + (local index)  on each axis.  So at point t the weight block is the
  kernel's weight between row 1024·i + p and column 1024·j + q, and the two sums over q that the step adds are column
  block j's parts of the two sums for that row.
-/
import proofs.«181819_j7292854469118_2_alg».proof.Proof.HostSide
import proofs.«181819_j7292854469118_2_alg».proof.Proof.Body

noncomputable section

open scoped BigOperators

namespace Cert.KernelIdeal.Blocks

open Cert.KernelIdeal Cert.KernelIdeal.Gen Idealize.ShloMosaic Idealize.ShloMosaic.TcCoe Idealize.SL.Sem
  Idealize.ShloMosaic.ValueIdx Cert.Grnn

variable (m : (ℓ : Loc nD τ sig) → Buf (Elt Ideal) ℓ)

/-- The printed index maps, decided over the 32 points: which block of its array each window holds at point t. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val % 8 ∧ win0_4.index t (1 : Fin 2) = 0
    ∧ win0_5.index t (0 : Fin 2) = t.val / 8 ∧ win0_5.index t (1 : Fin 2) = 0 :=
  (by decide +kernel : ∀ t : Fin grid0.N, _)

/-- The X block at point t: rows 1024·(t/8) … of X. -/
theorem blkX_at (c : Dev nD) (t : Fin cfg0.N) (p : Fin 1024) (d : Fin 512) :
    (iblk m c 0 t : Vec Ideal S1024x512 .bf16) (ix2 p d)
      = (m ((c : Thread nD τ).loc main_arg0) : S4096x512.Idx → EReal) (ix2 (rowOf (t.val / 8) p) d) := by
  refine Eq.trans ?_ (HostSide.arrX_at m c (rowOf (t.val / 8) p) d)
  have hN : cfg0.N = 32 := N_0
  have ht := t.isLt
  have hp := p.isLt
  obtain ⟨e0, e1, -⟩ := idx_facts t
  unfold iblk
  rw [View.read_apply]
  have h : ((cfg0.win 0).blk t).view.emb (ix2 p d) = ix2 (rowOf (t.val / 8) p) d := by
    funext a; apply Fin.ext
    match a with
    | ⟨0, _⟩ => show win0_0.index t (0 : Fin 2) * 1024 + 1 * p.val = (1024 * (t.val / 8) + p.val) % 4096; omega
    | ⟨1, _⟩ => show win0_0.index t (1 : Fin 2) * 512 + 1 * d.val = d.val; omega
  rw [h]
  rfl

/-- The Y block at point t: rows 1024·(t%8) … of Y. -/
theorem blkY_at (c : Dev nD) (t : Fin cfg0.N) (q : Fin 1024) (d : Fin 512) :
    (iblk m c 1 t : Vec Ideal S1024x512 .bf16) (ix2 q d)
      = (m ((c : Thread nD τ).loc main_arg1) : S8192x512.Idx → EReal) (ix2 (colOf (t.val % 8) q) d) := by
  refine Eq.trans ?_ (HostSide.arrY_at m c (colOf (t.val % 8) q) d)
  have hq := q.isLt
  obtain ⟨-, -, e0, e1, -⟩ := idx_facts t
  unfold iblk
  rw [View.read_apply]
  have h : ((cfg0.win 1).blk t).view.emb (ix2 q d) = ix2 (colOf (t.val % 8) q) d := by
    funext a; apply Fin.ext
    match a with
    | ⟨0, _⟩ => show win0_1.index t (0 : Fin 2) * 1024 + 1 * q.val = (1024 * (t.val % 8) + q.val) % 8192; omega
    | ⟨1, _⟩ => show win0_1.index t (1 : Fin 2) * 512 + 1 * d.val = d.val; omega
  rw [h]
  rfl

/-- The block of the rows' terms at point t. -/
theorem blkXh_at (c : Dev nD) (t : Fin cfg0.N) (p : Fin 1024) :
    (iblk m c 2 t : Vec Ideal S1024x1 .f32) (ix2 p (0 : Fin 1))
      = Ideal.ofBits .f32 0xBF000000#32
          * (Ideal.ofBits .f32 0x00000000#32 + xsq (m ((c : Thread nD τ).loc main_arg0)) (rowOf (t.val / 8) p)) := by
  refine Eq.trans ?_ (HostSide.arrXh_at m c (rowOf (t.val / 8) p))
  have hN : cfg0.N = 32 := N_0
  have ht := t.isLt
  have hp := p.isLt
  obtain ⟨-, -, -, -, e0, e1, -⟩ := idx_facts t
  unfold iblk
  rw [View.read_apply]
  have h : ((cfg0.win 2).blk t).view.emb (ix2 p (0 : Fin 1)) = ix2 (rowOf (t.val / 8) p) (0 : Fin 1) := by
    funext a; apply Fin.ext
    match a with
    | ⟨0, _⟩ => show win0_2.index t (0 : Fin 2) * 1024 + 1 * p.val = (1024 * (t.val / 8) + p.val) % 4096; omega
    | ⟨1, _⟩ => show win0_2.index t (1 : Fin 2) * 1 + 1 * 0 = 0; omega
  rw [h]
  rfl

/-- The block of the columns' terms at point t. -/
theorem blkYh_at (c : Dev nD) (t : Fin cfg0.N) (q : Fin 1024) :
    (iblk m c 3 t : Vec Ideal S1x1024 .f32) (ix2 (0 : Fin 1) q)
      = Ideal.ofBits .f32 0xBF000000#32
          * (Ideal.ofBits .f32 0x00000000#32 + ysq (m ((c : Thread nD τ).loc main_arg1)) (colOf (t.val % 8) q)) := by
  refine Eq.trans ?_ (HostSide.arrYh_at m c (colOf (t.val % 8) q))
  have hq := q.isLt
  obtain ⟨-, -, -, -, -, -, e0, e1, -⟩ := idx_facts t
  unfold iblk
  rw [View.read_apply]
  have h : ((cfg0.win 3).blk t).view.emb (ix2 (0 : Fin 1) q) = ix2 (0 : Fin 1) (colOf (t.val % 8) q) := by
    funext a; apply Fin.ext
    match a with
    | ⟨0, _⟩ => show win0_3.index t (0 : Fin 2) * 1 + 1 * 0 = 0; omega
    | ⟨1, _⟩ => show win0_3.index t (1 : Fin 2) * 1024 + 1 * q.val = (1024 * (t.val % 8) + q.val) % 8192; omega
  rw [h]
  rfl

/-- The L block at point t: rows 1024·(t%8) … of L. -/
theorem blkL_at (c : Dev nD) (t : Fin cfg0.N) (q : Fin 1024) (k : Fin 16) :
    (iblk m c 4 t : Vec Ideal S1024x16 .bf16) (ix2 q k)
      = (m ((c : Thread nD τ).loc main_arg2) : S8192x16.Idx → EReal) (ix2 (colOf (t.val % 8) q) k) := by
  refine Eq.trans ?_ (HostSide.arrL_at m c (colOf (t.val % 8) q) k)
  have hq := q.isLt
  obtain ⟨-, -, -, -, -, -, -, -, e0, e1, -⟩ := idx_facts t
  unfold iblk
  rw [View.read_apply]
  have h : ((cfg0.win 4).blk t).view.emb (ix2 q k) = ix2 (colOf (t.val % 8) q) k := by
    funext a; apply Fin.ext
    match a with
    | ⟨0, _⟩ => show win0_4.index t (0 : Fin 2) * 1024 + 1 * q.val = (1024 * (t.val % 8) + q.val) % 8192; omega
    | ⟨1, _⟩ => show win0_4.index t (1 : Fin 2) * 16 + 1 * k.val = k.val; omega
  rw [h]
  rfl

/-- The weight block at point t is the kernel's weight between row 1024·(t/8) + p and column 1024·(t%8) + q. -/
theorem weights_blk (c : Dev nD) (t : Fin cfg0.N) (p q : Fin 1024) :
    k0_pay5 (F := Ideal) (iblk m c 0 t) (iblk m c 1 t) (iblk m c 2 t) (iblk m c 3 t) (ix2 p q)
      = wKer (m ((c : Thread nD τ).loc main_arg0)) (m ((c : Thread nD τ).loc main_arg1))
          (rowOf (t.val / 8) p) (colOf (t.val % 8) q) := by
  refine (Body.weights_at (iblk m c 0 t) (iblk m c 1 t) (iblk m c 2 t) (iblk m c 3 t) p q).trans ?_
  unfold wKer cross
  exact congrArg Ideal.exp (congrArg₂ (· + ·) (congrArg₂ (· + ·)
    (congrArg (· * Ideal.ofBits .f32 0x3F800000#32)
      (Finset.sum_congr rfl fun d _ => congrArg₂ (· * ·) (blkX_at m c t p d) (blkY_at m c t q d)))
    (blkXh_at m c t p)) (blkYh_at m c t q))

/-- What a step adds to the weighted sum for row p and label column k is column block t%8's part of it. -/
theorem accBlock_blk (c : Dev nD) (t : Fin cfg0.N) (p : Fin 1024) (k : Fin 16) :
    ∑ q : Fin 1024, k0_pay5 (F := Ideal) (iblk m c 0 t) (iblk m c 1 t) (iblk m c 2 t) (iblk m c 3 t) (ix2 p q)
        * (iblk m c 4 t : Vec Ideal S1024x16 .bf16) (ix2 q k)
      = accBlock (wKer (m ((c : Thread nD τ).loc main_arg0)) (m ((c : Thread nD τ).loc main_arg1)))
          (m ((c : Thread nD τ).loc main_arg2)) (t.val / 8) (t.val % 8) p k := by
  unfold accBlock
  exact Finset.sum_congr rfl fun q _ => congrArg₂ (· * ·) (weights_blk m c t p q) (blkL_at m c t q k)

/-- What a step adds to the sum of weights for row p is column block t%8's part of it. -/
theorem sumBlock_blk (c : Dev nD) (t : Fin cfg0.N) (p : Fin 1024) :
    ∑ q : Fin 1024, k0_pay5 (F := Ideal) (iblk m c 0 t) (iblk m c 1 t) (iblk m c 2 t) (iblk m c 3 t) (ix2 p q)
      = sumBlock (wKer (m ((c : Thread nD τ).loc main_arg0)) (m ((c : Thread nD τ).loc main_arg1)))
          (t.val / 8) (t.val % 8) p := by
  unfold sumBlock
  exact Finset.sum_congr rfl fun q _ => weights_blk m c t p q

end Cert.KernelIdeal.Blocks

end
-- ==== Proof.Pieces.lean ====
/-
  What one run of the body leaves behind, in each of its three cases, as the body's arithmetic applied to the blocks
  it loaded.  Every store of the body covers its whole buffer, so a buffer ends at its LAST store's value, and a load
  of a buffer stored whole just before reads that store's value:

    first step (the accumulators are reset, then updated):   acc  ← step (blocks, zero),   wsum ← step' (blocks, zero)
    middle step:                                             acc  ← step (blocks, acc),    wsum ← step' (blocks, wsum)
    last step: the same two updates, and the output block ← (new acc) / (new wsum).
-/
import proofs.«181819_j7292854469118_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## The first step of a row tile -/

/-- The weighted-sum accumulator after a first step: the update applied to the zero block. -/
theorem acc_first (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : cond0_0 i) (hc1 : ¬cond0_1 i)
    (x0 : Vec F S1024x512 .bf16) (x1 : Vec F S1024x512 .bf16) (x2 : Vec F S1024x1 .f32) (x3 : Vec F S1x1024 .f32) (x4 : Vec F S1024x16 .bf16) :
    sout0_A_0 c i a2 h2 a3 h3 a4 h4 a5 h5 a6 h6 a7 h7 a8 h8 a9 h9 hc0 hc1 x0 x1 x2 x3 x4 = k0_pay6 x0 x1 x2 x3 x4 k0_pay3 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-- The sum-of-weights accumulator after a first step: the update applied to the zero column. -/
theorem wsum_first (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : cond0_0 i) (hc1 : ¬cond0_1 i)
    (x0 : Vec F S1024x512 .bf16) (x1 : Vec F S1024x512 .bf16) (x2 : Vec F S1024x1 .f32) (x3 : Vec F S1x1024 .f32) (x4 : Vec F S1024x16 .bf16) :
    sout0_A_1 c i a2 h2 a3 h3 a4 h4 a5 h5 a6 h6 a7 h7 a8 h8 a9 h9 hc0 hc1 x0 x1 x2 x3 x4 = k0_pay1 (k0_pay7 x0 x1 x2 x3 k0_pay4) := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-! ## A middle step -/

/-- The weighted-sum accumulator after a middle step: the update applied to what the step before left. -/
theorem acc_middle (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : ¬cond0_0 i) (hc1 : ¬cond0_1 i)
    (x0 : Vec F S1024x512 .bf16) (x1 : Vec F S1024x512 .bf16) (x2 : Vec F S1024x1 .f32) (x3 : Vec F S1x1024 .f32) (x4 : Vec F S1024x16 .bf16) (xs0 : Vec F S1024x16 .f32) (xs1 : Vec F S1024x1 .f32) :
    sout0_B_0 c i a2 h2 a3 h3 a4 h4 a5 h5 a6 h6 a7 h7 a8 h8 a9 h9 hc0 hc1 x0 x1 x2 x3 x4 xs0 xs1 = k0_pay6 x0 x1 x2 x3 x4 xs0 := by
  unfold sout0_B_0
  rw [View.read_writes_eq_canon _ _ _ (scover0_B_0 c i a2 h2 a3 h3 a4 h4 a5 h5 a6 h6 a7 h7 a8 h8 a9 h9 hc0 hc1 x0 x1 x2 x3 x4 xs0 xs1)]
  unfold kernelRun0_B
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-- The sum-of-weights accumulator after a middle step. -/
theorem wsum_middle (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : ¬cond0_0 i) (hc1 : ¬cond0_1 i)
    (x0 : Vec F S1024x512 .bf16) (x1 : Vec F S1024x512 .bf16) (x2 : Vec F S1024x1 .f32) (x3 : Vec F S1x1024 .f32) (x4 : Vec F S1024x16 .bf16) (xs0 : Vec F S1024x16 .f32) (xs1 : Vec F S1024x1 .f32) :
    sout0_B_1 c i a2 h2 a3 h3 a4 h4 a5 h5 a6 h6 a7 h7 a8 h8 a9 h9 hc0 hc1 x0 x1 x2 x3 x4 xs0 xs1 = k0_pay1 (k0_pay7 x0 x1 x2 x3 xs1) := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-! ## The last step -/

/-- The weighted-sum accumulator after the last step. -/
theorem acc_last (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : ¬cond0_0 i) (hc1 : cond0_1 i)
    (x0 : Vec F S1024x512 .bf16) (x1 : Vec F S1024x512 .bf16) (x2 : Vec F S1024x1 .f32) (x3 : Vec F S1x1024 .f32) (x4 : Vec F S1024x16 .bf16) (xs0 : Vec F S1024x16 .f32) (xs1 : Vec F S1024x1 .f32) :
    sout0_C_0 c i a2 h2 a3 h3 a4 h4 a5 h5 a6 h6 a7 h7 a8 h8 a9 h9 hc0 hc1 x0 x1 x2 x3 x4 xs0 xs1 = k0_pay6 x0 x1 x2 x3 x4 xs0 := by
  unfold sout0_C_0
  rw [View.read_writes_eq_canon _ _ _ (scover0_C_0 c i a2 h2 a3 h3 a4 h4 a5 h5 a6 h6 a7 h7 a8 h8 a9 h9 hc0 hc1 x0 x1 x2 x3 x4 xs0 xs1)]
  unfold kernelRun0_C
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-- The sum-of-weights accumulator after the last step. -/
theorem wsum_last (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : ¬cond0_0 i) (hc1 : cond0_1 i)
    (x0 : Vec F S1024x512 .bf16) (x1 : Vec F S1024x512 .bf16) (x2 : Vec F S1024x1 .f32) (x3 : Vec F S1x1024 .f32) (x4 : Vec F S1024x16 .bf16) (xs0 : Vec F S1024x16 .f32) (xs1 : Vec F S1024x1 .f32) :
    sout0_C_1 c i a2 h2 a3 h3 a4 h4 a5 h5 a6 h6 a7 h7 a8 h8 a9 h9 hc0 hc1 x0 x1 x2 x3 x4 xs0 xs1 = k0_pay1 (k0_pay7 x0 x1 x2 x3 xs1) := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

/-- The output block the last step stores: the quotient of the two accumulators as that step leaves them. -/
theorem out_last (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x16 .bf16) (h6 : a6.IsWhole) (a7 : Memref sig .tc .vmem S1024x16 .f32) (h7 : a7.IsWhole) (a8 : Memref sig .tc .vmem S1024x16 .f32) (h8 : a8.IsWhole) (a9 : Memref sig .tc .vmem S1024x1 .f32) (h9 : a9.IsWhole) (hc0 : ¬cond0_0 i) (hc1 : cond0_1 i)
    (x0 : Vec F S1024x512 .bf16) (x1 : Vec F S1024x512 .bf16) (x2 : Vec F S1024x1 .f32) (x3 : Vec F S1x1024 .f32) (x4 : Vec F S1024x16 .bf16) (xs0 : Vec F S1024x16 .f32) (xs1 : Vec F S1024x1 .f32) :
    out0_C_5 c i a2 h2 a3 h3 a4 h4 a5 h5 a6 h6 a7 h7 a8 h8 a9 h9 hc0 hc1 x0 x1 x2 x3 x4 xs0 xs1 = k0_pay2 (k0_pay6 x0 x1 x2 x3 x4 xs0) (k0_pay1 (k0_pay7 x0 x1 x2 x3 xs1)) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  simp only [View.readAt_eq_ld, h2.read_unread, h3.read_unread, h4.read_unread, h5.read_unread, h6.read_unread,
    h7.read_unread, h8.read_unread, h9.read_unread, View.ld_unit_zero (S := S1024x512) hz, View.ld_unit_zero (S := S1024x1) hz,
    View.ld_unit_zero (S := S1x1024) hz, View.ld_unit_zero (S := S1024x16) hz, View.readCov_unit_zero (S := S1024x16) _ hz,
    View.readCov_unit_zero (S := S1024x1) _ hz, View.canon_unit_zero (S := S1024x16) hz, View.canon_unit_zero (S := S1024x1) hz,
    View.canon_cons_unit_zero (S := S1024x16) hz, View.canon_cons_unit_zero (S := S1024x1) hz]

end Cert.KernelIdeal.Pieces

end
-- ==== Proof.Steps.lean ====
/-
  One step of the reduction, and all of them.  At grid point t = 8·i + j the body adds column block j's parts to the
  two accumulators of row tile i:

      first step  (j = 0):   acc = 0 + block j's part,                     wsum likewise,
      later steps (j > 0):   acc = (acc after point t − 1) + block j's part, wsum likewise,

  so by induction on the point the accumulators after point n hold the running sums of row tile n / 8 up to column
  block n % 8.  At a last step (j = 7) the output block is the quotient of the two accumulators as that step leaves
  them, which is the result's entry for the rows of the tile.
-/
import proofs.«181819_j7292854469118_2_alg».proof.Proof.Blocks
import proofs.«181819_j7292854469118_2_alg».proof.Proof.Pieces
import proofs.«181819_j7292854469118_2_alg».proof.Proof.Gen.KernelIdeal.Frame

set_option maxRecDepth 16384

noncomputable section

open scoped BigOperators

namespace Cert.KernelIdeal.Steps

open Cert.KernelIdeal Cert.KernelIdeal.Gen Idealize.ShloMosaic Idealize.ShloMosaic.TcCoe Idealize.SL.Sem
  Idealize.ShloMosaic.ValueIdx Cert.Grnn

/-! ## The running sums, one block further -/

theorem accUpTo_first (W : Fin 4096 → Fin 8192 → EReal) (L : SL.Idx → EReal) (i j : ℕ) (p : Fin 1024) (k : Fin 16)
    (hj : j = 0) : accUpTo W L i j p k = Ideal.ofBits .f32 0x00000000#32 + accBlock W L i j p k := by
  subst hj; exact accUpTo_zero W L i p k

theorem accUpTo_next (W : Fin 4096 → Fin 8192 → EReal) (L : SL.Idx → EReal) (i i' j j' : ℕ) (p : Fin 1024) (k : Fin 16)
    (hi : i = i') (hj : j = j' + 1) : accUpTo W L i j p k = accUpTo W L i' j' p k + accBlock W L i j p k := by
  subst hi; subst hj; exact accUpTo_succ W L i j' p k

theorem sumUpTo_first (W : Fin 4096 → Fin 8192 → EReal) (i j : ℕ) (p : Fin 1024) (hj : j = 0) :
    sumUpTo W i j p = Ideal.ofBits .f32 0x00000000#32 + sumBlock W i j p := by
  subst hj; exact sumUpTo_zero W i p

theorem sumUpTo_next (W : Fin 4096 → Fin 8192 → EReal) (i i' j j' : ℕ) (p : Fin 1024)
    (hi : i = i') (hj : j = j' + 1) : sumUpTo W i j p = sumUpTo W i' j' p + sumBlock W i j p := by
  subst hi; subst hj; exact sumUpTo_succ W i j' p

variable (m : (ℓ : Loc nD τ sig) → Buf (Elt Ideal) ℓ)

/-! ## One step, at a point of each case -/

/-- A first step leaves the weighted-sum accumulator at zero plus the block's part. -/
theorem acc_first (c : Dev nD) (t : Fin cfg0.N) (h0 : t.val % 8 = 0) (h1 : ¬t.val % 8 = 7) (p : Fin 1024) (k : Fin 16) :
    ((outsAt0 m c t.val t.isLt).2.1 : Vec Ideal S1024x16 .f32) (ix2 p k)
      = Ideal.ofBits .f32 0x00000000#32 + accBlock (wKer (m ((c : Thread nD τ).loc main_arg0)) (m ((c : Thread nD τ).loc main_arg1))) (m ((c : Thread nD τ).loc main_arg2)) (t.val / 8) (t.val % 8) p k := by
  rw [outsAt0_A m c t h0 h1]
  dsimp only
  rw [Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)]
  refine (Body.acc_at (iblk m c 0 t) (iblk m c 1 t) (iblk m c 2 t) (iblk m c 3 t) (iblk m c 4 t) (k0_pay3 (F := Ideal)) p k).trans ?_
  exact congrArg₂ (· + ·) (Body.zero_acc_at _) (Blocks.accBlock_blk m c t p k)

/-- A first step leaves the sum-of-weights accumulator at zero plus the block's part. -/
theorem wsum_first (c : Dev nD) (t : Fin cfg0.N) (h0 : t.val % 8 = 0) (h1 : ¬t.val % 8 = 7) (p : Fin 1024) :
    ((outsAt0 m c t.val t.isLt).2.2 : Vec Ideal S1024x1 .f32) (ix2 p (0 : Fin 1))
      = Ideal.ofBits .f32 0x00000000#32 + sumBlock (wKer (m ((c : Thread nD τ).loc main_arg0)) (m ((c : Thread nD τ).loc main_arg1))) (t.val / 8) (t.val % 8) p := by
  rw [outsAt0_A m c t h0 h1]
  dsimp only
  rw [Pieces.wsum_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)]
  rw [Body.relay_eq (k0_pay7 (iblk m c 0 t) (iblk m c 1 t) (iblk m c 2 t) (iblk m c 3 t) (k0_pay4 (F := Ideal)))]
  refine (Body.wsum_at (iblk m c 0 t) (iblk m c 1 t) (iblk m c 2 t) (iblk m c 3 t) (k0_pay4 (F := Ideal)) p).trans ?_
  exact congrArg₂ (· + ·) (Body.zero_wsum_at _) (Blocks.sumBlock_blk m c t p)

/-- A middle step adds the block's part to the weighted-sum accumulator the point before left. -/
theorem acc_middle (c : Dev nD) (t : Fin cfg0.N) (h0 : ¬t.val % 8 = 0) (h1 : ¬t.val % 8 = 7) (p : Fin 1024) (k : Fin 16) :
    ((outsAt0 m c t.val t.isLt).2.1 : Vec Ideal S1024x16 .f32) (ix2 p k)
      = ((outsAt0 m c (t.val - 1) (Nat.lt_of_le_of_lt (Nat.sub_le _ _) t.isLt)).2.1 : Vec Ideal S1024x16 .f32) (ix2 p k)
        + accBlock (wKer (m ((c : Thread nD τ).loc main_arg0)) (m ((c : Thread nD τ).loc main_arg1))) (m ((c : Thread nD τ).loc main_arg2)) (t.val / 8) (t.val % 8) p k := by
  rw [outsAt0_B m c t h0 h1]
  dsimp only
  rw [Pieces.acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  refine (Body.acc_at (iblk m c 0 t) (iblk m c 1 t) (iblk m c 2 t) (iblk m c 3 t) (iblk m c 4 t) (outsAt0 m c (t.val - 1) (Nat.lt_of_le_of_lt (Nat.sub_le _ _) t.isLt)).2.1 p k).trans ?_
  exact congrArg₂ (· + ·) rfl (Blocks.accBlock_blk m c t p k)

/-- A middle step adds the block's part to the sum-of-weights accumulator the point before left. -/
theorem wsum_middle (c : Dev nD) (t : Fin cfg0.N) (h0 : ¬t.val % 8 = 0) (h1 : ¬t.val % 8 = 7) (p : Fin 1024) :
    ((outsAt0 m c t.val t.isLt).2.2 : Vec Ideal S1024x1 .f32) (ix2 p (0 : Fin 1))
      = ((outsAt0 m c (t.val - 1) (Nat.lt_of_le_of_lt (Nat.sub_le _ _) t.isLt)).2.2 : Vec Ideal S1024x1 .f32) (ix2 p (0 : Fin 1))
        + sumBlock (wKer (m ((c : Thread nD τ).loc main_arg0)) (m ((c : Thread nD τ).loc main_arg1))) (t.val / 8) (t.val % 8) p := by
  rw [outsAt0_B m c t h0 h1]
  dsimp only
  rw [Pieces.wsum_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  rw [Body.relay_eq (k0_pay7 (iblk m c 0 t) (iblk m c 1 t) (iblk m c 2 t) (iblk m c 3 t) (outsAt0 m c (t.val - 1) (Nat.lt_of_le_of_lt (Nat.sub_le _ _) t.isLt)).2.2)]
  refine (Body.wsum_at (iblk m c 0 t) (iblk m c 1 t) (iblk m c 2 t) (iblk m c 3 t) (outsAt0 m c (t.val - 1) (Nat.lt_of_le_of_lt (Nat.sub_le _ _) t.isLt)).2.2 p).trans ?_
  exact congrArg₂ (· + ·) rfl (Blocks.sumBlock_blk m c t p)

/-- The last step does the same to the weighted-sum accumulator. -/
theorem acc_last (c : Dev nD) (t : Fin cfg0.N) (h0 : ¬t.val % 8 = 0) (h1 : t.val % 8 = 7) (p : Fin 1024) (k : Fin 16) :
    ((outsAt0 m c t.val t.isLt).2.1 : Vec Ideal S1024x16 .f32) (ix2 p k)
      = ((outsAt0 m c (t.val - 1) (Nat.lt_of_le_of_lt (Nat.sub_le _ _) t.isLt)).2.1 : Vec Ideal S1024x16 .f32) (ix2 p k)
        + accBlock (wKer (m ((c : Thread nD τ).loc main_arg0)) (m ((c : Thread nD τ).loc main_arg1))) (m ((c : Thread nD τ).loc main_arg2)) (t.val / 8) (t.val % 8) p k := by
  rw [outsAt0_C m c t h0 h1]
  dsimp only
  rw [Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  refine (Body.acc_at (iblk m c 0 t) (iblk m c 1 t) (iblk m c 2 t) (iblk m c 3 t) (iblk m c 4 t) (outsAt0 m c (t.val - 1) (Nat.lt_of_le_of_lt (Nat.sub_le _ _) t.isLt)).2.1 p k).trans ?_
  exact congrArg₂ (· + ·) rfl (Blocks.accBlock_blk m c t p k)

/-- The last step does the same to the sum-of-weights accumulator. -/
theorem wsum_last (c : Dev nD) (t : Fin cfg0.N) (h0 : ¬t.val % 8 = 0) (h1 : t.val % 8 = 7) (p : Fin 1024) :
    ((outsAt0 m c t.val t.isLt).2.2 : Vec Ideal S1024x1 .f32) (ix2 p (0 : Fin 1))
      = ((outsAt0 m c (t.val - 1) (Nat.lt_of_le_of_lt (Nat.sub_le _ _) t.isLt)).2.2 : Vec Ideal S1024x1 .f32) (ix2 p (0 : Fin 1))
        + sumBlock (wKer (m ((c : Thread nD τ).loc main_arg0)) (m ((c : Thread nD τ).loc main_arg1))) (t.val / 8) (t.val % 8) p := by
  rw [outsAt0_C m c t h0 h1]
  dsimp only
  rw [Pieces.wsum_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  rw [Body.relay_eq (k0_pay7 (iblk m c 0 t) (iblk m c 1 t) (iblk m c 2 t) (iblk m c 3 t) (outsAt0 m c (t.val - 1) (Nat.lt_of_le_of_lt (Nat.sub_le _ _) t.isLt)).2.2)]
  refine (Body.wsum_at (iblk m c 0 t) (iblk m c 1 t) (iblk m c 2 t) (iblk m c 3 t) (outsAt0 m c (t.val - 1) (Nat.lt_of_le_of_lt (Nat.sub_le _ _) t.isLt)).2.2 p).trans ?_
  exact congrArg₂ (· + ·) rfl (Blocks.sumBlock_blk m c t p)

/-- At a last step the output block is the quotient of the two accumulators as that step leaves them. -/
theorem out_last (c : Dev nD) (t : Fin cfg0.N) (h0 : ¬t.val % 8 = 0) (h1 : t.val % 8 = 7) (p : Fin 1024) (k : Fin 16) :
    ((outsAt0 m c t.val t.isLt).1 : Vec Ideal S1024x16 .f32) (ix2 p k)
      = Ideal.div (((outsAt0 m c t.val t.isLt).2.1 : Vec Ideal S1024x16 .f32) (ix2 p k))
          (((outsAt0 m c t.val t.isLt).2.2 : Vec Ideal S1024x1 .f32) (ix2 p (0 : Fin 1))) := by
  rw [outsAt0_C m c t h0 h1]
  dsimp only
  rw [Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.wsum_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  exact Body.quot_at (k0_pay6 (iblk m c 0 t) (iblk m c 1 t) (iblk m c 2 t) (iblk m c 3 t) (iblk m c 4 t) (outsAt0 m c (t.val - 1) (Nat.lt_of_le_of_lt (Nat.sub_le _ _) t.isLt)).2.1) (k0_pay1 (k0_pay7 (iblk m c 0 t) (iblk m c 1 t) (iblk m c 2 t) (iblk m c 3 t) (outsAt0 m c (t.val - 1) (Nat.lt_of_le_of_lt (Nat.sub_le _ _) t.isLt)).2.2)) p k

/-! ## All the steps -/

/-- After point n the two accumulators hold the running sums of row tile n / 8 up to column block n % 8. -/
theorem scratch_at (c : Dev nD) : ∀ (n : ℕ) (h : n < cfg0.N),
    (∀ (p : Fin 1024) (k : Fin 16), ((outsAt0 m c n h).2.1 : Vec Ideal S1024x16 .f32) (ix2 p k)
        = accUpTo (wKer (m ((c : Thread nD τ).loc main_arg0)) (m ((c : Thread nD τ).loc main_arg1))) (m ((c : Thread nD τ).loc main_arg2)) (n / 8) (n % 8) p k)
    ∧ (∀ p : Fin 1024, ((outsAt0 m c n h).2.2 : Vec Ideal S1024x1 .f32) (ix2 p (0 : Fin 1))
        = sumUpTo (wKer (m ((c : Thread nD τ).loc main_arg0)) (m ((c : Thread nD τ).loc main_arg1))) (n / 8) (n % 8) p)
  | 0, h =>
    ⟨fun p k => (acc_first m c ⟨0, h⟩ rfl (by show ¬(0 : ℕ) % 8 = 7; decide) p k).trans (accUpTo_first _ _ _ _ p k rfl).symm,
     fun p => (wsum_first m c ⟨0, h⟩ rfl (by show ¬(0 : ℕ) % 8 = 7; decide) p).trans (sumUpTo_first _ _ _ p rfl).symm⟩
  | n + 1, h => by
    have hN : cfg0.N = 32 := N_0
    have ih := scratch_at c n (Nat.lt_of_succ_lt h)
    by_cases h0 : (n + 1) % 8 = 0
    · have h1 : ¬(n + 1) % 8 = 7 := by omega
      exact ⟨fun p k => (acc_first m c ⟨n + 1, h⟩ h0 h1 p k).trans (accUpTo_first _ _ _ _ p k h0).symm,
        fun p => (wsum_first m c ⟨n + 1, h⟩ h0 h1 p).trans (sumUpTo_first _ _ _ p h0).symm⟩
    · have hi : (n + 1) / 8 = n / 8 := by omega
      have hj : (n + 1) % 8 = n % 8 + 1 := by omega
      by_cases h1 : (n + 1) % 8 = 7
      · exact ⟨fun p k => (acc_last m c ⟨n + 1, h⟩ h0 h1 p k).trans
            ((congrArg₂ (· + ·) (ih.1 p k) rfl).trans (accUpTo_next _ _ _ _ _ _ p k hi hj).symm),
          fun p => (wsum_last m c ⟨n + 1, h⟩ h0 h1 p).trans
            ((congrArg₂ (· + ·) (ih.2 p) rfl).trans (sumUpTo_next _ _ _ _ _ p hi hj).symm)⟩
      · exact ⟨fun p k => (acc_middle m c ⟨n + 1, h⟩ h0 h1 p k).trans
            ((congrArg₂ (· + ·) (ih.1 p k) rfl).trans (accUpTo_next _ _ _ _ _ _ p k hi hj).symm),
          fun p => (wsum_middle m c ⟨n + 1, h⟩ h0 h1 p).trans
            ((congrArg₂ (· + ·) (ih.2 p) rfl).trans (sumUpTo_next _ _ _ _ _ p hi hj).symm)⟩

/-- At a last step the output block holds the result's entries for the rows of its tile. -/
theorem out_at_last (c : Dev nD) (t : Fin cfg0.N) (h1 : t.val % 8 = 7) (p : Fin 1024) (k : Fin 16) :
    ((outsAt0 m c t.val t.isLt).1 : Vec Ideal S1024x16 .f32) (ix2 p k)
      = Gat (wKer (m ((c : Thread nD τ).loc main_arg0)) (m ((c : Thread nD τ).loc main_arg1))) (m ((c : Thread nD τ).loc main_arg2)) (rowOf (t.val / 8) p) k := by
  have h0 : ¬t.val % 8 = 0 := by omega
  refine (out_last m c t h0 h1 p k).trans ?_
  rw [(scratch_at m c t.val t.isLt).1 p k, (scratch_at m c t.val t.isLt).2 p, h1]
  exact quotient_upTo_last _ _ _ p k

end Cert.KernelIdeal.Steps

end
-- ==== Proof.KernelValue.lean ====
/-
  The kernel's result array.  The output window is written back only at the last step of each row tile (points
  t ≡ 7 mod 8), its block there the 1024 rows of tile t / 8; those four blocks tile the [4096, 16] array, and each
  holds the result's entries for its rows.  So after the run the array is G at the kernel's weight, whatever it held
  before.
-/
import proofs.«181819_j7292854469118_2_alg».proof.Proof.Steps
import proofs.«181819_j7292854469118_2_alg».proof.Proof.Gen.KernelIdeal.Value
import Idealize.ShloMosaic.Lib.Pipeline.Value

set_option maxRecDepth 16384

noncomputable section

open scoped BigOperators

namespace Cert.KernelIdeal.KernelValue

open Cert.KernelIdeal Cert.KernelIdeal.Gen Idealize.ShloMosaic Idealize.ShloMosaic.TcCoe Idealize.SL.Sem
  Idealize.ShloMosaic.ValueIdx Cert.Grnn
open Idealize.ShloMosaic.Pipeline (Dat)

variable (m : (ℓ : Loc nD τ sig) → Buf (Elt Ideal) ℓ) (ρ : Dev nD → PrngReg)

/-- What the result array ends holding: G of the three arguments, the weight in the kernel's spelling. -/
abbrev result (c : Dev nD) : Buf (Elt Ideal) ((c : Thread nD τ).loc main_v13) :=
  G (wKer (m ((c : Thread nD τ).loc main_arg0)) (m ((c : Thread nD τ).loc main_arg1))) (m ((c : Thread nD τ).loc main_arg2))

/-- What a last-step point writes back is its block of the result. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : cfg0.N = 32 := N_0
  have ht := t.isLt
  obtain ⟨-, -, -, -, -, -, -, -, -, -, e0, e1⟩ := Blocks.idx_facts t
  rw [Value.flushed5]
  funext y
  have hy0 : (y 0).val < 1024 := (y 0).isLt
  have hy1 : (y 1).val < 16 := (y 1).isLt
  have hy : y = ix2 (⟨(y 0).val, hy0⟩ : Fin 1024) (⟨(y 1).val, hy1⟩ : Fin 16) := by
    funext a; apply Fin.ext
    match a with
    | ⟨0, _⟩ => rfl
    | ⟨1, _⟩ => rfl
  show ((outsAt0 m c t.val t.isLt).1 : Vec Ideal S1024x16 .f32) y
      = Gat (wKer (m ((c : Thread nD τ).loc main_arg0)) (m ((c : Thread nD τ).loc main_arg1))) (m ((c : Thread nD τ).loc main_arg2))
          ((((cfg0.win 5).blk t).view.emb y) 0) ((((cfg0.win 5).blk t).view.emb y) 1)
  have er : (((cfg0.win 5).blk t).view.emb y) 0 = rowOf (t.val / 8) (⟨(y 0).val, hy0⟩ : Fin 1024) := by
    apply Fin.ext
    show win0_5.index t (0 : Fin 2) * 1024 + 1 * (y 0).val = (1024 * (t.val / 8) + (y 0).val) % 4096
    omega
  have ec : (((cfg0.win 5).blk t).view.emb y) 1 = (⟨(y 1).val, hy1⟩ : Fin 16) := by
    apply Fin.ext
    show win0_5.index t (1 : Fin 2) * 16 + 1 * (y 1).val = (y 1).val
    omega
  rw [er, ec]
  refine Eq.trans (congrArg ((outsAt0 m c t.val t.isLt).1 : Vec Ideal S1024x16 .f32) hy) ?_
  exact Steps.out_at_last m c t h7 _ _

/-- An index of the array is in point t's block iff each coordinate is in the block's range on its axis. -/
theorem mem_blk (t : Fin cfg0.N) (i : S4096x16.Idx) :
    i ∈ ((cfg0.win 5).blk t).view.set ↔ ∀ a : Fin 2, win0_5.index t a * S1024x16.size a ≤ (i a).val
      ∧ (i a).val < win0_5.index t a * S1024x16.size a + S1024x16.size a := by
  show i ∈ ((View.whole main_v13).slice (win0_5.rect t)).set ↔ _
  rw [View.set_slice_whole, Rect.mem_set_unit]
  exact Iff.rfl

/-- Every index of the array is in the block of the last step of its row tile. -/
theorem cover (i : S4096x16.Idx) : ∃ t : Fin cfg0.N, (cfg0.win 5).flush t = true ∧ i ∈ ((cfg0.win 5).blk t).view.set := by
  have hN : cfg0.N = 32 := N_0
  have hi0 : (i 0).val < 4096 := (i 0).isLt
  have hi1 : (i 1).val < 16 := (i 1).isLt
  let t : Fin cfg0.N := ⟨8 * ((i 0).val / 1024) + 7, by rw [hN]; omega⟩
  have htv : t.val = 8 * ((i 0).val / 1024) + 7 := rfl
  obtain ⟨-, -, -, -, -, -, -, -, -, -, e0, e1⟩ := Blocks.idx_facts t
  refine ⟨t, (flush0_5 t).mpr (by rw [htv]; omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0, htv]; omega
  | ⟨1, _⟩ =>
    show win0_5.index t (1 : Fin 2) * 16 ≤ (i 1).val ∧ (i 1).val < win0_5.index t (1 : Fin 2) * 16 + 16
    rw [e1]; omega

/-- The result array after the run. -/
theorem final (c : Dev nD) : (dats m 0 c).arrAt 5 cfg0.N = result m c :=
  (dats m 0 c).arrAt_eq_of_cover 5 (result m c) (flushed_eq m c) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference's result, read index by index, is the specification's G with the weight in the reference's spelling:
  entry (n, m) of the exponential stage is  exp (−(((0 + ‖Xₙ‖²) + (0 + ‖Yₘ‖²)) − 2·⟨Xₙ, Yₘ⟩) / 2), the two norms reaching
  (n, m) through a column and a row broadcast; entry (n, k) of the result is the product of that stage with L at (n, k)
  over the row sum of that stage at n, the row sum broadcast as a column.
-/
import proofs.«181819_j7292854469118_2_alg».proof.Proof.Gen.ReferenceIdeal.Read
import proofs.«181819_j7292854469118_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Grnn

/-- The exponential stage at (n, m) is the weight in the reference's spelling. -/
theorem weight_at (X : (⟨S4096x512, .f32⟩ : BufTy).Contents (Elt Ideal)) (Y : (⟨S8192x512, .f32⟩ : BufTy).Contents (Elt Ideal))
    (n : Fin 4096) (m : Fin 8192) :
    val_main_v16 (F := Ideal) X Y (ix2 n m) = wRef X Y n m := by
  have e1 : ∀ d : Fin 512, idx_main_v1 (idx_main_v2 (idx_main_v7 (ix2 n m))) d = ix2 n d := fun d =>
    funext fun a => Fin.ext (by match a with | ⟨0, _⟩ => rfl | ⟨1, _⟩ => rfl)
  have e2 : ∀ d : Fin 512, idx_main_v4 (idx_main_v6 (idx_main_v8 (ix2 n m))) d = ix2 m d := fun d =>
    funext fun a => Fin.ext (by match a with | ⟨0, _⟩ => rfl | ⟨1, _⟩ => rfl)
  have e3 : ∀ d : Fin 512, lidx_main_v5 (ix2 n m) d = ix2 n d := fun d =>
    funext fun a => Fin.ext (by match a with | ⟨0, _⟩ => rfl | ⟨1, _⟩ => rfl)
  have e4 : ∀ d : Fin 512, ridx_main_v5 (ix2 n m) d = ix2 m d := fun d =>
    funext fun a => Fin.ext (by match a with | ⟨0, _⟩ => rfl | ⟨1, _⟩ => rfl)
  rw [val_main_v16_apply, val_main_v15_apply, val_main_v13_apply, val_main_v14_apply, val_main_v12_apply,
    val_main_v9_apply, val_main_v11_apply, val_main_v10_apply, val_main_v7_apply, val_main_v8_apply,
    val_main_v2_apply, val_main_v6_apply, val_main_v1_apply, val_main_v4_apply, val_main_v5_apply]
  simp only [val_main_v0_apply, val_main_v3_apply, val_main_cst_apply, val_main_cst_0_apply, val_main_cst_1_apply,
    val_main_cst_2_apply, e1, e2, e3, e4, Ideal.hostUnary_exp_def, Ideal.hostDivf_def, Ideal.hostNegf_def,
    Ideal.negf_def, Ideal.subf_def, Ideal.addf_def, Ideal.mulf_def, Ideal.ofBits_def]
  unfold wRef xsq ysq cross
  rfl

/-- The reference's result array is G at the reference's weight. -/
theorem result_eq (X : (⟨S4096x512, .f32⟩ : BufTy).Contents (Elt Ideal)) (Y : (⟨S8192x512, .f32⟩ : BufTy).Contents (Elt Ideal))
    (L : (⟨S8192x16, .f32⟩ : BufTy).Contents (Elt Ideal)) :
    val_main_v21 (F := Ideal) X Y L = G (wRef X Y) L := by
  funext i
  obtain ⟨n, k, rfl⟩ : ∃ (n : Fin 4096) (k : Fin 16), i = ix2 n k := ⟨i 0, i 1, eq_ix2 i⟩
  have el : ∀ q : Fin 8192, lidx_main_v17 (ix2 n k) q = ix2 n q := fun q =>
    funext fun a => Fin.ext (by match a with | ⟨0, _⟩ => rfl | ⟨1, _⟩ => rfl)
  have er : ∀ q : Fin 8192, ridx_main_v17 (ix2 n k) q = ix2 q k := fun q =>
    funext fun a => Fin.ext (by match a with | ⟨0, _⟩ => rfl | ⟨1, _⟩ => rfl)
  have es : ∀ q : Fin 8192, idx_main_v18 (idx_main_v19 (idx_main_v20 (ix2 n k))) q = ix2 n q := fun q =>
    funext fun a => Fin.ext (by match a with | ⟨0, _⟩ => rfl | ⟨1, _⟩ => rfl)
  rw [val_main_v21_apply, val_main_v17_apply, val_main_v20_apply, val_main_v19_apply, val_main_v18_apply]
  simp only [val_main_cst_3_apply, el, er, es, weight_at, Ideal.hostDivf_def, Ideal.ofBits_def]
  show _ = Gat (wRef X Y) L n k
  unfold Gat
  rfl

end Cert.ReferenceIdeal.RefValue

end
-- ==== Proof.Exponent.lean ====
/-
  The Gaussian weight's exponent, spelt two ways.  With a = ‖x_n‖², b = ‖y_m‖² and c = ⟨x_n, y_m⟩ REAL numbers,
  the kernel forms  c·1 + (−½)·(0 + a) + (−½)·(0 + b)  and the reference  −(((0 + a) + (0 + b)) − 2·c) / 2 :
  both are −‖x_n − y_m‖² / 2.  Distributing −½ over the sum is a law of the reals that fails at the infinities,
  which is why the three numbers are taken real here.
-/
import Idealize.ShloMosaic.PureOps.Ideal
import proofs.«181819_j7292854469118_2_alg».proof.Proof.Consts

noncomputable section

open scoped BigOperators

namespace Cert.Grnn

open Idealize.ShloMosaic

/-- Over the reals the two spellings of the exponent agree. -/
theorem exponent_real (a b c : ℝ) :
    c * 1 + (-(1 / 2 : ℝ)) * a + (-(1 / 2 : ℝ)) * b = (-((a + b) - 2 * c)) * (1 / 2 : ℝ) := by
  ring

/-- The same on the extended reals, over the programs' own float words, for real a, b, c. -/
theorem exponent_eq (a b c : ℝ) :
    ((c : EReal) * Ideal.ofBits .f32 0x3F800000#32
        + Ideal.ofBits .f32 0xBF000000#32 * (Ideal.ofBits .f32 0x00000000#32 + (a : EReal)))
      + Ideal.ofBits .f32 0xBF000000#32 * (Ideal.ofBits .f32 0x00000000#32 + (b : EReal))
    = Ideal.div (-(((Ideal.ofBits .f32 0x00000000#32 + (a : EReal)) + (Ideal.ofBits .f32 0x00000000#32 + (b : EReal)))
          - Ideal.ofBits .f32 0x40000000#32 * (c : EReal))) (Ideal.ofBits .f32 0x40000000#32) := by
  rw [Consts.ofBits_one, Consts.ofBits_negHalf, Consts.ofBits_zero, Consts.ofBits_two,
    Ideal.div_coe (by norm_num : (2 : ℝ) ≠ 0)]
  simp only [zero_add]
  exact_mod_cast congrArg (fun r : ℝ => (r : EReal)) (exponent_real a b c)

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Grnn

end
-- ==== Proof.Weights.lean ====
/-
  For real-valued X and Y the kernel's and the reference's spellings of the weight are one number: the two squared
  norms and the inner product are finite sums of real products, hence real, and on real numbers the two exponents are
  the same real (−‖Xₙ − Yₘ‖² / 2).
-/
import proofs.«181819_j7292854469118_2_alg».proof.Proof.Spec
import proofs.«181819_j7292854469118_2_alg».proof.Proof.Exponent

noncomputable section

open scoped BigOperators

namespace Cert.Grnn

open Idealize.ShloMosaic Idealize.ShloMosaic.ValueIdx

/-- A sum of products of real-valued entries is the reading of the real sum of products. -/
theorem sum_mul_real {ι : Type*} (s : Finset ι) (f g : ι → EReal) (f' g' : ι → ℝ) (hf : ∀ i, f i = (f' i : EReal))
    (hg : ∀ i, g i = (g' i : EReal)) : ∑ i ∈ s, f i * g i = ((∑ i ∈ s, f' i * g' i : ℝ) : EReal) := by
  rw [coe_sum]
  exact Finset.sum_congr rfl fun i _ => by rw [hf, hg, EReal.coe_mul]

/-- For real-valued X and Y the two spellings of the weight agree. -/
theorem wKer_eq_wRef (X : SX.Idx → EReal) (Y : SY.Idx → EReal) (hX : ∀ i, ∃ r : ℝ, X i = (r : EReal))
    (hY : ∀ i, ∃ r : ℝ, Y i = (r : EReal)) (n : Fin 4096) (m : Fin 8192) : wKer X Y n m = wRef X Y n m := by
  choose x hx using hX
  choose y hy using hY
  unfold wKer wRef xsq ysq cross
  rw [sum_mul_real Finset.univ (fun d : Fin 512 => X (ix2 n d)) (fun d => X (ix2 n d)) (fun d => x (ix2 n d))
      (fun d => x (ix2 n d)) (fun d => hx _) (fun d => hx _),
    sum_mul_real Finset.univ (fun d : Fin 512 => Y (ix2 m d)) (fun d => Y (ix2 m d)) (fun d => y (ix2 m d))
      (fun d => y (ix2 m d)) (fun d => hy _) (fun d => hy _),
    sum_mul_real Finset.univ (fun d : Fin 512 => X (ix2 n d)) (fun d => Y (ix2 m d)) (fun d => x (ix2 n d))
      (fun d => y (ix2 m d)) (fun d => hx _) (fun d => hy _)]
  exact congrArg Ideal.exp (exponent_eq _ _ _)

end Cert.Grnn

end
-- ==== Proof.Finite.lean ====
/-
  The precondition, read back: it is the conjunction of three "every entry has absolute value below +∞", one per
  argument, each a reduction by "and" of a pointwise comparison.  An extended real whose absolute value  max x (−x)  is
  below +∞ is neither +∞ nor −∞, so it is a real number.  Used for X and Y (the law that joins the two spellings of the
  exponent needs their squared norms and inner products real); L's finiteness is not needed.
-/
import proofs.«181819_j7292854469118_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.Grnn.Finite

open Idealize.ShloMosaic Idealize.ShloMosaic.ValueIdx

instance : Subsingleton Cert.Pre_finite_inputs.S_.Idx := ⟨fun a b => funext fun d => d.elim0⟩

/-- The word the comparison is made against denotes +∞. -/
theorem top_word : Ideal.ofBits .f32 0x7F800000#32 = ⊤ := by
  simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  have hlt : max x (-x) < ⊤ := by
    by_contra hn
    unfold Ideal.cmp at h
    simp [hn] at h
  obtain ⟨h1, h2⟩ := max_lt_iff.1 hlt
  induction x using EReal.rec
  · exact absurd h2 (by simp)
  · exact ⟨_, rfl⟩
  · exact absurd h1 (lt_irrefl _)

/-- One entry's comparison, as the precondition spells it, makes the entry real. -/
theorem real_of_entry {s : Shape} (X : FVec Ideal s .f32) (hb : (⟨0, ![]⟩ : Shape).BroadcastsInDim s (![] : Fin 0 → Fin s.rank))
    (i : s.Idx)
    (e : cmpf .olt (Host.absf X) (broadcastInDim s ![] hb (constant (F := Ideal) ⟨0, ![]⟩ .f32 0x7F800000#32)) i = 1#1) :
    ∃ r : ℝ, X i = (r : EReal) := by
  rw [ValueIdx.cmpf_apply, broadcastInDim_apply _ hb _ i ix0 (fun a => a.elim0)] at e
  have e2 : Ideal.cmp .olt (max (X i) (-(X i))) (Ideal.ofBits .f32 0x7F800000#32) = 1#1 := e
  rw [top_word] at e2
  exact real_of_abs_lt _ e2

/-- Under the precondition every entry of X and every entry of Y is a real number. -/
theorem reals_of_pre [hP : Cert.Pre_finite_inputs.Facts] (X : FVec Ideal Cert.Pre_finite_inputs.S4096x512 .f32)
    (Y : FVec Ideal Cert.Pre_finite_inputs.S8192x512 .f32) (L : FVec Ideal Cert.Pre_finite_inputs.S8192x16 .f32)
    (h : Cert.Pre_finite_inputs.fn (F := Ideal) X Y L = fun _ => 1#1) :
    (∀ i, ∃ r : ℝ, X i = (r : EReal)) ∧ (∀ i, ∃ r : ℝ, Y i = (r : EReal)) := by
  have h0 := congrFun h ix0
  dsimp only [Cert.Pre_finite_inputs.fn] at h0
  obtain ⟨h01, -⟩ := IntOp.andi_eq_one.1 h0
  obtain ⟨hx, hy⟩ := IntOp.andi_eq_one.1 h01
  exact ⟨fun i => real_of_entry X _ i (Host.reduce_andi_all _ _ _ _ _ hx i),
    fun i => real_of_entry Y _ i (Host.reduce_andi_all _ _ _ _ _ hy i)⟩

end Cert.Grnn.Finite

end
-- ==== Proof.lean ====
/-
  The kernel computes, for query rows X [4096, 512], training rows Y [8192, 512] and labels L [8192, 16],

      out (n, k) = (∑ₘ w (n, m) · L (m, k)) / (∑ₘ w (n, m)),      w (n, m) = exp (−‖Xₙ − Yₘ‖² / 2),

  the weighted average of the labels under Gaussian weights.  The reference expands the squared distance as
  ‖Xₙ‖² + ‖Yₘ‖² − 2⟨Xₙ, Yₘ⟩ and divides by 2 after negating; the kernel precomputes −½‖Xₙ‖² and −½‖Yₘ‖², adds them to
  ⟨Xₙ, Yₘ⟩·1, and accumulates the two sums over m in eight blocks of 1024 columns per tile of 1024 rows, dividing at
  the last block.

  Over the extended reals the two programs agree because
    · a change of float format is the identity, a matrix product into zero and a row sum are plain sums;
    · a sum taken in eight consecutive blocks, from zero, is the whole sum (addition of extended reals is
      associative and commutative: no finiteness is needed here);
    · the two spellings of the exponent are the same real number once ‖Xₙ‖², ‖Yₘ‖² and ⟨Xₙ, Yₘ⟩ are real, which the
      precondition gives (every entry of X and Y finite); distributing −½ over a sum is the one step that fails at
      the infinities;
    · the final quotient is the same operation of the same two numbers on both sides.
  The three frames are the generated ones; the idealization rewrote nothing, so it is preserved trivially.
-/
import proofs.«181819_j7292854469118_2_alg».proof.Defs
import proofs.«181819_j7292854469118_2_alg».proof.Proof.Gen.Kernel
import proofs.«181819_j7292854469118_2_alg».proof.Proof.Gen.Kernel.Skeleton
import proofs.«181819_j7292854469118_2_alg».proof.Proof.Gen.Kernel.Launch
import proofs.«181819_j7292854469118_2_alg».proof.Proof.Gen.Kernel.Points
import proofs.«181819_j7292854469118_2_alg».proof.Proof.Gen.Kernel.Frame
import proofs.«181819_j7292854469118_2_alg».proof.Proof.Gen.KernelIdeal
import proofs.«181819_j7292854469118_2_alg».proof.Proof.Gen.KernelIdeal.Skeleton
import proofs.«181819_j7292854469118_2_alg».proof.Proof.Gen.KernelIdeal.Launch
import proofs.«181819_j7292854469118_2_alg».proof.Proof.Gen.KernelIdeal.Points
import proofs.«181819_j7292854469118_2_alg».proof.Proof.Gen.KernelIdeal.Frame
import proofs.«181819_j7292854469118_2_alg».proof.Proof.Gen.KernelIdeal.Value
import proofs.«181819_j7292854469118_2_alg».proof.Proof.Gen.ReferenceIdeal
import proofs.«181819_j7292854469118_2_alg».proof.Proof.Gen.ReferenceIdeal.Run
import proofs.«181819_j7292854469118_2_alg».proof.Proof.Gen.ReferenceIdeal.Read
import proofs.«181819_j7292854469118_2_alg».proof.Proof.Gen.Pre_finite_inputs
import proofs.«181819_j7292854469118_2_alg».proof.Proof.KernelValue
import proofs.«181819_j7292854469118_2_alg».proof.Proof.RefValue
import proofs.«181819_j7292854469118_2_alg».proof.Proof.Weights
import proofs.«181819_j7292854469118_2_alg».proof.Proof.Finite
import Idealize.ShloMosaic.Adequacy
import Idealize.ShloMosaic.Init

noncomputable section

namespace Cert.Proof

open Idealize.ShloMosaic Idealize.ShloMosaic.TcCoe Idealize.SL.Sem Cert.Grnn

/-- The word-level kernel runs and keeps its arguments: the generated frame. -/
theorem frame_kernel : @Cert.frame_Kernel Cert.Kernel.Gen.facts Cert.Pre_finite_inputs.Gen.facts :=
  fun m ρ _ => Cert.Kernel.Gen.frame m ρ

/-- The idealized kernel runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on X, Y, L and satisfy the precondition, both idealized programs end with the same
    result array: G of the arguments — the kernel's by its run, the reference's by its run read index by index, the
    two spellings of the weight agreeing because X and Y are real-valued. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2]
  obtain ⟨hX, hY⟩ := Cert.Grnn.Finite.reals_of_pre _ _ _ (hpre c)
  show G _ _ = G _ _
  exact congrArg (fun W => G W _) (funext fun n => funext fun k => (wKer_eq_wRef _ _ hX hY n k).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
